-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v111)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v111) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x10 : Shape := ⟨2, ![64, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg6 : FVec F S64 .f32) (main_arg7 : FVec F S64x10 .f32) (main_arg8 : FVec F S10 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x10 .f32 := Host.absf main_arg7
  let main_cst_8 : FVec F S_ .f32 := constant S_ .f32 0x7F800000#32
  let main_v25 : FVec F S64x10 .f32 := broadcastInDim S64x10 ![] bcast_S_S64x10 main_cst_8
  let main_v26 : IVec S64x10 1 := cmpf .olt main_v24 main_v25
  let main_c_9 : IVec S_ 1 := constantI S_ 1 1#1
  let main_v27 : IVec S_ 1 := (fun x v => Host.reduce IntOp.andi x v reducesTo_S64x10_S_d0_1 h_S_) main_v26 main_c_9
  let main_v28 : IVec S_ 1 := andi main_v23 main_v27
  let main_v29 : FVec F S10 .f32 := Host.absf main_arg8
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x64 .f32) (main_arg6 : FVec F S64 .f32) (main_arg7 : FVec F S64x10 .f32) (main_arg8 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_arg7 main_arg8 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S5000x128 : Shape := ⟨2, ![5000, 128]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S5000x64 : Shape := ⟨2, ![5000, 64]⟩
abbrev S1600000x64 : Shape := ⟨2, ![1600000, 64]⟩
abbrev S1x64 : Shape := ⟨2, ![1, 64]⟩
abbrev S64x64 : Shape := ⟨2, ![64, 64]⟩
abbrev S64x1 : Shape := ⟨2, ![64, 1]⟩
abbrev S1x10 : Shape := ⟨2, ![1, 10]⟩

abbrev nBuf : Space → Nat
  | .hbm => 150
  | .vmem => 10
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x64, .f32⟩
  | 6 => ⟨S64, .f32⟩
  | 7 => ⟨S64x10, .f32⟩
  | 8 => ⟨S10, .f32⟩
  | 9 => ⟨S1x1600000, .i32⟩
  | 10 => ⟨S1600000, .i32⟩
  | 11 => ⟨S1x1600000, .i32⟩
  | 12 => ⟨S1600000, .i32⟩
  | 13 => ⟨S_, .f32⟩
  | 14 => ⟨S100000, .f32⟩
  | 15 => ⟨S_, .i32⟩
  | 16 => ⟨S1600000, .i32⟩
  | 17 => ⟨S1600000, .i1⟩
  | 18 => ⟨S_, .i32⟩
  | 19 => ⟨S1600000, .i32⟩
  | 20 => ⟨S1600000, .i32⟩
  | 21 => ⟨S1600000, .i32⟩
  | 22 => ⟨S1600000x1, .i32⟩
  | 23 => ⟨S_, .f32⟩
  | 24 => ⟨S1600000, .f32⟩
  | 25 => ⟨S100000, .f32⟩
  | 26 => ⟨S_, .f32⟩
  | 27 => ⟨S100000, .f32⟩
  | 28 => ⟨S100000, .f32⟩
  | 29 => ⟨S100000, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000, .f32⟩
  | 48 => ⟨S1600000, .f32⟩
  | 49 => ⟨S100000x128, .f32⟩
  | 50 => ⟨S_, .i32⟩
  | 51 => ⟨S1600000, .i32⟩
  | 52 => ⟨S1600000, .i1⟩
  | 53 => ⟨S_, .i32⟩
  | 54 => ⟨S1600000, .i32⟩
  | 55 => ⟨S1600000, .i32⟩
  | 56 => ⟨S1600000, .i32⟩
  | 57 => ⟨S1600000x1, .i32⟩
  | 58 => ⟨S1600000x128, .f32⟩
  | 59 => ⟨S1600000x1, .f32⟩
  | 60 => ⟨S1600000x128, .f32⟩
  | 61 => ⟨S1600000x128, .f32⟩
  | 62 => ⟨S_, .f32⟩
  | 63 => ⟨S100000x128, .f32⟩
  | 64 => ⟨S_, .i32⟩
  | 65 => ⟨S1600000, .i32⟩
  | 66 => ⟨S1600000, .i1⟩
  | 67 => ⟨S_, .i32⟩
  | 68 => ⟨S1600000, .i32⟩
  | 69 => ⟨S1600000, .i32⟩
  | 70 => ⟨S1600000, .i32⟩
  | 71 => ⟨S1600000x1, .i32⟩
  | 72 => ⟨S100000x128, .f32⟩
  | 73 => ⟨S100000, .f32⟩
  | 74 => ⟨S100000x1, .f32⟩
  | 75 => ⟨S100000x128, .f32⟩
  | 76 => ⟨S100000x128, .f32⟩
  | 77 => ⟨S100000x128, .f32⟩
  | 78 => ⟨S1x128, .f32⟩
  | 79 => ⟨S100000x128, .f32⟩
  | 80 => ⟨S100000x128, .f32⟩
  | 81 => ⟨S_, .f32⟩
  | 82 => ⟨S100000x128, .f32⟩
  | 83 => ⟨S100000x128, .f32⟩
  | 84 => ⟨S100000x64, .f32⟩
  | 85 => ⟨S_, .i32⟩
  | 86 => ⟨S1600000, .i32⟩
  | 87 => ⟨S1600000, .i1⟩
  | 88 => ⟨S_, .i32⟩
  | 89 => ⟨S1600000, .i32⟩
  | 90 => ⟨S1600000, .i32⟩
  | 91 => ⟨S1600000, .i32⟩
  | 92 => ⟨S1600000x1, .i32⟩
  | 93 => ⟨S1600000x64, .f32⟩
  | 94 => ⟨S1600000x1, .f32⟩
  | 95 => ⟨S1600000x64, .f32⟩
  | 96 => ⟨S1600000x64, .f32⟩
  | 97 => ⟨S_, .f32⟩
  | 98 => ⟨S100000x64, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S100000x64, .f32⟩
  | 108 => ⟨S100000, .f32⟩
  | 109 => ⟨S100000x1, .f32⟩
  | 110 => ⟨S100000x64, .f32⟩
  | 111 => ⟨S100000x64, .f32⟩
  | 112 => ⟨S100000x64, .f32⟩
  | 113 => ⟨S1x64, .f32⟩
  | 114 => ⟨S100000x64, .f32⟩
  | 115 => ⟨S100000x64, .f32⟩
  | 116 => ⟨S_, .f32⟩
  | 117 => ⟨S64x64, .f32⟩
  | 118 => ⟨S_, .i32⟩
  | 119 => ⟨S100000, .i32⟩
  | 120 => ⟨S100000, .i1⟩
  | 121 => ⟨S_, .i32⟩
  | 122 => ⟨S100000, .i32⟩
  | 123 => ⟨S100000, .i32⟩
  | 124 => ⟨S100000, .i32⟩
  | 125 => ⟨S100000x1, .i32⟩
  | 126 => ⟨S64x64, .f32⟩
  | 127 => ⟨S_, .f32⟩
  | _ => ⟨S100000x128, .f32⟩

abbrev hbmTy0_1 (i : Nat) : BufTy := match i % 128 with
  | 0 => ⟨S64, .f32⟩
  | 1 => ⟨S_, .i32⟩
  | 2 => ⟨S100000, .i32⟩
  | 3 => ⟨S100000, .i1⟩
  | 4 => ⟨S_, .i32⟩
  | 5 => ⟨S100000, .i32⟩
  | 6 => ⟨S100000, .i32⟩
  | 7 => ⟨S100000, .i32⟩
  | 8 => ⟨S100000x1, .i32⟩
  | 9 => ⟨S_, .f32⟩
  | 10 => ⟨S100000, .f32⟩
  | 11 => ⟨S64, .f32⟩
  | 12 => ⟨S_, .f32⟩
  | 13 => ⟨S64, .f32⟩
  | 14 => ⟨S64, .f32⟩
  | 15 => ⟨S64x1, .f32⟩
  | 16 => ⟨S64x64, .f32⟩
  | 17 => ⟨S64x64, .f32⟩
  | 18 => ⟨S64x10, .f32⟩
  | 19 => ⟨S1x10, .f32⟩
  | 20 => ⟨S64x10, .f32⟩
  | 21 => ⟨S64x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x64, .f32⟩
  | .local _ .vmem, ⟨8, _⟩ => ⟨S5000x64, .f32⟩
  | .local _ .vmem, ⟨9, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_3 : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_c_6 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_7 : Ref sig .tc := ⟨.hbm, 50, rfl⟩
abbrev main_v32 : Ref sig .tc := ⟨.hbm, 51, rfl⟩
abbrev main_v33 : Ref sig .tc := ⟨.hbm, 52, rfl⟩
abbrev main_c_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_c_10 : Ref sig .tc := ⟨.hbm, 64, rfl⟩
abbrev main_v43 : Ref sig .tc := ⟨.hbm, 65, rfl⟩
abbrev main_v44 : Ref sig .tc := ⟨.hbm, 66, rfl⟩
abbrev main_c_11 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_call0_cst : Ref sig .tc := ⟨.hbm, 81, rfl⟩
abbrev main_call0_v0 : Ref sig .tc := ⟨.hbm, 82, rfl⟩
abbrev main_v58 : Ref sig .tc := ⟨.hbm, 83, rfl⟩
abbrev main_v59 : Ref sig .tc := ⟨.hbm, 84, rfl⟩
abbrev main_c_12 : Ref sig .tc := ⟨.hbm, 85, rfl⟩
abbrev main_v60 : Ref sig .tc := ⟨.hbm, 86, rfl⟩
abbrev main_v61 : Ref sig .tc := ⟨.hbm, 87, rfl⟩
abbrev main_c_13 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_14 : Ref sig .tc := ⟨.hbm, 97, rfl⟩
abbrev main_v70 : Ref sig .tc := ⟨.hbm, 98, rfl⟩
abbrev main_c_15 : Ref sig .tc := ⟨.hbm, 99, rfl⟩
abbrev main_v71 : Ref sig .tc := ⟨.hbm, 100, rfl⟩
abbrev main_v72 : Ref sig .tc := ⟨.hbm, 101, rfl⟩
abbrev main_c_16 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_17 : Ref sig .tc := ⟨.hbm, 116, rfl⟩
abbrev main_v86 : Ref sig .tc := ⟨.hbm, 117, rfl⟩
abbrev main_c_18 : Ref sig .tc := ⟨.hbm, 118, rfl⟩
abbrev main_v87 : Ref sig .tc := ⟨.hbm, 119, rfl⟩
abbrev main_v88 : Ref sig .tc := ⟨.hbm, 120, rfl⟩
abbrev main_c_19 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_cst_20 : Ref sig .tc := ⟨.hbm, 127, rfl⟩
abbrev main_v94 : Ref sig .tc := ⟨.hbm, 128, rfl⟩
abbrev main_c_21 : Ref sig .tc := ⟨.hbm, 129, rfl⟩
abbrev main_v95 : Ref sig .tc := ⟨.hbm, 130, rfl⟩
abbrev main_v96 : Ref sig .tc := ⟨.hbm, 131, rfl⟩
abbrev main_c_22 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_cst_23 : Ref sig .tc := ⟨.hbm, 137, rfl⟩
abbrev main_v101 : Ref sig .tc := ⟨.hbm, 138, rfl⟩
abbrev main_v102 : Ref sig .tc := ⟨.hbm, 139, rfl⟩
abbrev main_cst_24 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64x64 : S_.BroadcastsInDim S64x64 (![] : Fin 0 → Fin S64x64.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1
  dot_S64x64_S64x10_S64x10_1_0_0_1_n_n_wf : DotDims.WF S64x64 S64x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x64_S64x10_S64x10_1_0_0_1_n_n : DotDims S64x64 S64x10 S64x10 where
  lhsContracting := [1]
  rhsContracting := [0]
  lhsNonContracting := [0]
  rhsNonContracting := [1]
  lhsBatch := []
  rhsBatch := []
  wf := dot_S64x64_S64x10_S64x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v58) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v59) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩
abbrev S64x64 : Shape := ⟨2, ![64, 64]⟩
abbrev S64x1 : Shape := ⟨2, ![64, 1]⟩
abbrev S1x10 : Shape := ⟨2, ![1, 10]⟩

abbrev nBuf : Space → Nat
  | .hbm => 186
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x64, .f32⟩
  | 6 => ⟨S64, .f32⟩
  | 7 => ⟨S64x10, .f32⟩
  | 8 => ⟨S10, .f32⟩
  | 9 => ⟨S1x1600000, .i32⟩
  | 10 => ⟨S1600000, .i32⟩
  | 11 => ⟨S1x1600000, .i32⟩
  | 12 => ⟨S1600000, .i32⟩
  | 13 => ⟨S100000x128, .f32⟩
  | 14 => ⟨S_, .f32⟩
  | 15 => ⟨S100000, .f32⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S_, .f32⟩
  | 25 => ⟨S1600000, .f32⟩
  | 26 => ⟨S100000, .f32⟩
  | 27 => ⟨S_, .f32⟩
  | 28 => ⟨S100000, .f32⟩
  | 29 => ⟨S100000, .f32⟩
  | 30 => ⟨S100000, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000, .f32⟩
  | 49 => ⟨S1600000, .f32⟩
  | 50 => ⟨S_, .i32⟩
  | 51 => ⟨S1600000, .i32⟩
  | 52 => ⟨S1600000, .i1⟩
  | 53 => ⟨S_, .i32⟩
  | 54 => ⟨S1600000, .i32⟩
  | 55 => ⟨S1600000, .i32⟩
  | 56 => ⟨S1600000, .i32⟩
  | 57 => ⟨S1600000x1, .i32⟩
  | 58 => ⟨S1600000x128, .f32⟩
  | 59 => ⟨S1600000x1, .f32⟩
  | 60 => ⟨S1600000x128, .f32⟩
  | 61 => ⟨S1600000x128, .f32⟩
  | 62 => ⟨S_, .f32⟩
  | 63 => ⟨S100000x128, .f32⟩
  | 64 => ⟨S_, .i32⟩
  | 65 => ⟨S1600000, .i32⟩
  | 66 => ⟨S1600000, .i1⟩
  | 67 => ⟨S_, .i32⟩
  | 68 => ⟨S1600000, .i32⟩
  | 69 => ⟨S1600000, .i32⟩
  | 70 => ⟨S1600000, .i32⟩
  | 71 => ⟨S1600000x1, .i32⟩
  | 72 => ⟨S100000x128, .f32⟩
  | 73 => ⟨S100000, .f32⟩
  | 74 => ⟨S100000x1, .f32⟩
  | 75 => ⟨S100000x128, .f32⟩
  | 76 => ⟨S100000x128, .f32⟩
  | 77 => ⟨S100000x128, .f32⟩
  | 78 => ⟨S1x128, .f32⟩
  | 79 => ⟨S100000x128, .f32⟩
  | 80 => ⟨S100000x128, .f32⟩
  | 81 => ⟨S_, .f32⟩
  | 82 => ⟨S100000x128, .f32⟩
  | 83 => ⟨S100000x128, .f32⟩
  | 84 => ⟨S100000x64, .f32⟩
  | 85 => ⟨S_, .f32⟩
  | 86 => ⟨S100000, .f32⟩
  | 87 => ⟨S_, .i32⟩
  | 88 => ⟨S1600000, .i32⟩
  | 89 => ⟨S1600000, .i1⟩
  | 90 => ⟨S_, .i32⟩
  | 91 => ⟨S1600000, .i32⟩
  | 92 => ⟨S1600000, .i32⟩
  | 93 => ⟨S1600000, .i32⟩
  | 94 => ⟨S1600000x1, .i32⟩
  | 95 => ⟨S_, .f32⟩
  | 96 => ⟨S1600000, .f32⟩
  | 97 => ⟨S100000, .f32⟩
  | 98 => ⟨S_, .f32⟩
  | 99 => ⟨S100000, .f32⟩
  | 100 => ⟨S100000, .f32⟩
  | 101 => ⟨S100000, .f32⟩
  | 102 => ⟨S_, .i32⟩
  | 103 => ⟨S1600000, .i32⟩
  | 104 => ⟨S1600000, .i1⟩
  | 105 => ⟨S_, .i32⟩
  | 106 => ⟨S1600000, .i32⟩
  | 107 => ⟨S1600000, .i32⟩
  | 108 => ⟨S1600000, .i32⟩
  | 109 => ⟨S1600000x1, .i32⟩
  | 110 => ⟨S1600000, .f32⟩
  | 111 => ⟨S_, .i32⟩
  | 112 => ⟨S1600000, .i32⟩
  | 113 => ⟨S1600000, .i1⟩
  | 114 => ⟨S_, .i32⟩
  | 115 => ⟨S1600000, .i32⟩
  | 116 => ⟨S1600000, .i32⟩
  | 117 => ⟨S1600000, .i32⟩
  | 118 => ⟨S1600000x1, .i32⟩
  | 119 => ⟨S1600000, .f32⟩
  | 120 => ⟨S1600000, .f32⟩
  | 121 => ⟨S_, .i32⟩
  | 122 => ⟨S1600000, .i32⟩
  | 123 => ⟨S1600000, .i1⟩
  | 124 => ⟨S_, .i32⟩
  | 125 => ⟨S1600000, .i32⟩
  | 126 => ⟨S1600000, .i32⟩
  | 127 => ⟨S1600000, .i32⟩
  | _ => ⟨S100000x128, .f32⟩

abbrev hbmTy0_1 (i : Nat) : BufTy := match i % 128 with
  | 0 => ⟨S1600000x1, .i32⟩
  | 1 => ⟨S1600000x64, .f32⟩
  | 2 => ⟨S1600000x1, .f32⟩
  | 3 => ⟨S1600000x64, .f32⟩
  | 4 => ⟨S1600000x64, .f32⟩
  | 5 => ⟨S_, .f32⟩
  | 6 => ⟨S100000x64, .f32⟩
  | 7 => ⟨S_, .i32⟩
  | 8 => ⟨S1600000, .i32⟩
  | 9 => ⟨S1600000, .i1⟩
  | 10 => ⟨S_, .i32⟩
  | 11 => ⟨S1600000, .i32⟩
  | 12 => ⟨S1600000, .i32⟩
  | 13 => ⟨S1600000, .i32⟩
  | 14 => ⟨S1600000x1, .i32⟩
  | 15 => ⟨S100000x64, .f32⟩
  | 16 => ⟨S100000, .f32⟩
  | 17 => ⟨S100000x1, .f32⟩
  | 18 => ⟨S100000x64, .f32⟩
  | 19 => ⟨S100000x64, .f32⟩
  | 20 => ⟨S100000x64, .f32⟩
  | 21 => ⟨S1x64, .f32⟩
  | 22 => ⟨S100000x64, .f32⟩
  | 23 => ⟨S100000x64, .f32⟩
  | 24 => ⟨S_, .f32⟩
  | 25 => ⟨S64x64, .f32⟩
  | 26 => ⟨S_, .i32⟩
  | 27 => ⟨S100000, .i32⟩
  | 28 => ⟨S100000, .i1⟩
  | 29 => ⟨S_, .i32⟩
  | 30 => ⟨S100000, .i32⟩
  | 31 => ⟨S100000, .i32⟩
  | 32 => ⟨S100000, .i32⟩
  | 33 => ⟨S100000x1, .i32⟩
  | 34 => ⟨S64x64, .f32⟩
  | 35 => ⟨S_, .f32⟩
  | 36 => ⟨S64, .f32⟩
  | 37 => ⟨S_, .i32⟩
  | 38 => ⟨S100000, .i32⟩
  | 39 => ⟨S100000, .i1⟩
  | 40 => ⟨S_, .i32⟩
  | 41 => ⟨S100000, .i32⟩
  | 42 => ⟨S100000, .i32⟩
  | 43 => ⟨S100000, .i32⟩
  | 44 => ⟨S100000x1, .i32⟩
  | 45 => ⟨S_, .f32⟩
  | 46 => ⟨S100000, .f32⟩
  | 47 => ⟨S64, .f32⟩
  | 48 => ⟨S_, .f32⟩
  | 49 => ⟨S64, .f32⟩
  | 50 => ⟨S64, .f32⟩
  | 51 => ⟨S64x1, .f32⟩
  | 52 => ⟨S64x64, .f32⟩
  | 53 => ⟨S64x64, .f32⟩
  | 54 => ⟨S64x10, .f32⟩
  | 55 => ⟨S1x10, .f32⟩
  | 56 => ⟨S64x10, .f32⟩
  | 57 => ⟨S64x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_7 : Ref sig .tc := ⟨.hbm, 50, rfl⟩
abbrev main_v32 : Ref sig .tc := ⟨.hbm, 51, rfl⟩
abbrev main_v33 : Ref sig .tc := ⟨.hbm, 52, rfl⟩
abbrev main_c_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_c_10 : Ref sig .tc := ⟨.hbm, 64, rfl⟩
abbrev main_v43 : Ref sig .tc := ⟨.hbm, 65, rfl⟩
abbrev main_v44 : Ref sig .tc := ⟨.hbm, 66, rfl⟩
abbrev main_c_11 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_call0_cst : Ref sig .tc := ⟨.hbm, 81, rfl⟩
abbrev main_call0_v0 : Ref sig .tc := ⟨.hbm, 82, rfl⟩
abbrev main_v58 : Ref sig .tc := ⟨.hbm, 83, rfl⟩
abbrev main_v59 : Ref sig .tc := ⟨.hbm, 84, rfl⟩
abbrev main_cst_12 : Ref sig .tc := ⟨.hbm, 85, rfl⟩
abbrev main_v60 : Ref sig .tc := ⟨.hbm, 86, rfl⟩
abbrev main_c_13 : Ref sig .tc := ⟨.hbm, 87, rfl⟩
abbrev main_v61 : Ref sig .tc := ⟨.hbm, 88, rfl⟩
abbrev main_v62 : Ref sig .tc := ⟨.hbm, 89, rfl⟩
abbrev main_c_14 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_15 : Ref sig .tc := ⟨.hbm, 95, rfl⟩
abbrev main_v67 : Ref sig .tc := ⟨.hbm, 96, rfl⟩
abbrev main_v68 : Ref sig .tc := ⟨.hbm, 97, rfl⟩
abbrev main_cst_16 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_c_17 : Ref sig .tc := ⟨.hbm, 102, rfl⟩
abbrev main_v72 : Ref sig .tc := ⟨.hbm, 103, rfl⟩
abbrev main_v73 : Ref sig .tc := ⟨.hbm, 104, rfl⟩
abbrev main_c_18 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_c_19 : Ref sig .tc := ⟨.hbm, 111, rfl⟩
abbrev main_v79 : Ref sig .tc := ⟨.hbm, 112, rfl⟩
abbrev main_v80 : Ref sig .tc := ⟨.hbm, 113, rfl⟩
abbrev main_c_20 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_c_21 : Ref sig .tc := ⟨.hbm, 121, rfl⟩
abbrev main_v87 : Ref sig .tc := ⟨.hbm, 122, rfl⟩
abbrev main_v88 : Ref sig .tc := ⟨.hbm, 123, rfl⟩
abbrev main_c_22 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_cst_23 : Ref sig .tc := ⟨.hbm, 133, rfl⟩
abbrev main_v97 : Ref sig .tc := ⟨.hbm, 134, rfl⟩
abbrev main_c_24 : Ref sig .tc := ⟨.hbm, 135, rfl⟩
abbrev main_v98 : Ref sig .tc := ⟨.hbm, 136, rfl⟩
abbrev main_v99 : Ref sig .tc := ⟨.hbm, 137, rfl⟩
abbrev main_c_25 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_cst_26 : Ref sig .tc := ⟨.hbm, 152, rfl⟩
abbrev main_v113 : Ref sig .tc := ⟨.hbm, 153, rfl⟩
abbrev main_c_27 : Ref sig .tc := ⟨.hbm, 154, rfl⟩
abbrev main_v114 : Ref sig .tc := ⟨.hbm, 155, rfl⟩
abbrev main_v115 : Ref sig .tc := ⟨.hbm, 156, rfl⟩
abbrev main_c_28 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_cst_29 : Ref sig .tc := ⟨.hbm, 163, rfl⟩
abbrev main_v121 : Ref sig .tc := ⟨.hbm, 164, rfl⟩
abbrev main_c_30 : Ref sig .tc := ⟨.hbm, 165, rfl⟩
abbrev main_v122 : Ref sig .tc := ⟨.hbm, 166, rfl⟩
abbrev main_v123 : Ref sig .tc := ⟨.hbm, 167, rfl⟩
abbrev main_c_31 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_cst_32 : Ref sig .tc := ⟨.hbm, 173, rfl⟩
abbrev main_v128 : Ref sig .tc := ⟨.hbm, 174, rfl⟩
abbrev main_v129 : Ref sig .tc := ⟨.hbm, 175, rfl⟩
abbrev main_cst_33 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64x64 : S_.BroadcastsInDim S64x64 (![] : Fin 0 → Fin S64x64.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1
  dot_S64x64_S64x10_S64x10_1_0_0_1_n_n_wf : DotDims.WF S64x64 S64x10 S64x10 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x64_S64x10_S64x10_1_0_0_1_n_n : DotDims S64x64 S64x10 S64x10 where
  lhsContracting := [1]
  rhsContracting := [0]
  lhsNonContracting := [0]
  rhsNonContracting := [1]
  lhsBatch := []
  rhsBatch := []
  wf := dot_S64x64_S64x10_S64x10_1_0_0_1_n_n_wf

class Facts : Prop extends Facts₀ where

variable [Facts]
-- ==== Proof.Spec.lean ====
/-
  The network as one function of its inputs, stage by stage.

  A graph of 100000 nodes and 1600000 directed edges (row 0 of the edge array the sources, row 1 the targets) carries
  a feature row per node. With `deg v = 1 + #{edges into v}` and `dinv = deg^(-1/2)`, one graph-convolution layer
  sends projected features `h` to
      out v = (∑ over edges e into v of h (src e) · dinv (src e) · dinv (dst e)) + h v · dinv v · dinv v + bias,
  the sum over incoming edges being a scatter-add at the targets of the gathered, scaled source rows. The network is
  two such layers (128 → 128 with a rectifier after it, then 128 → 64), the mean of the node rows over each of 64
  graphs (a scatter-add of rows and of ones at the graph ids, the count floored at one), and a last affine map to
  10 classes. An edge endpoint or graph id that is negative is wrapped by the axis length first, as array indexing
  does; what an out-of-range one does is whatever the host's gather and scatter do, the same here as in any program
  built from them.

  The two feature projections (`x ↦ x · W₁`, `h ↦ h · W₂`) enter as PARAMETERS `mm₁`, `mm₂`: everything else is spelt
  with the host operations themselves, so that a program which computes the projections in another way and the rest
  in this way is this function at its own projections.
-/
import proofs.«160996_j84404697301756_1_alg».proof.Proof.Gen.ReferenceIdeal

noncomputable section

namespace Cert.GraphConv

open Cert.ReferenceIdeal Cert.ReferenceIdeal.Gen Idealize.ShloMosaic

variable {F : FTy → Type} [FloatOps F]

/-- One row of the edge array: the sources (`r = 0`) or the targets (`r = 1`), as a vector over the edges. -/
def srcRow (ei : (⟨S2x1600000, .i32⟩ : BufTy).Contents (Elt F)) : (⟨S1600000, .i32⟩ : BufTy).Contents (Elt F) :=
  shapeCast _ (extractStridedSlice S1x1600000 ![0, 0] ei slices_S2x1600000_S1x1600000_0_0) shapeCasts_S1x1600000_S1600000

def dstRow (ei : (⟨S2x1600000, .i32⟩ : BufTy).Contents (Elt F)) : (⟨S1600000, .i32⟩ : BufTy).Contents (Elt F) :=
  shapeCast _ (extractStridedSlice S1x1600000 ![1, 0] ei slices_S2x1600000_S1x1600000_1_0) shapeCasts_S1x1600000_S1600000

/-- Node ids as gather / scatter indices: a negative id is wrapped by the number of nodes, and the vector becomes a
    column of one-element index tuples. -/
def nodeIdx (v : (⟨S1600000, .i32⟩ : BufTy).Contents (Elt F)) : (⟨S1600000x1, .i32⟩ : BufTy).Contents (Elt F) :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)

/-- `dinv = (1 + in-degree)^(-1/2)`: ones scattered at the edge targets, plus one, inverse square root. -/
def dinvOf (d : (⟨S1600000, .i32⟩ : BufTy).Contents (Elt F)) : (⟨S100000, .f32⟩ : BufTy).Contents (Elt F) :=
  Host.rsqrt (addf
    (Host.scatterAdd scatter_S100000_S1600000x1_S1600000_n_0_0_1
      (broadcastInDim S100000 ![] bcast_S_S100000 (constant S_ .f32 0x00000000#32)) (nodeIdx d)
      (broadcastInDim S1600000 ![] bcast_S_S1600000 (constant S_ .f32 0x3F800000#32)))
    (broadcastInDim S100000 ![] bcast_S_S100000 (constant S_ .f32 0x3F800000#32)))

/-- The weight of an edge: `dinv (src e) · dinv (dst e)`. -/
def normOf (s d : (⟨S1600000, .i32⟩ : BufTy).Contents (Elt F)) (dinv : (⟨S100000, .f32⟩ : BufTy).Contents (Elt F)) :
    (⟨S1600000, .f32⟩ : BufTy).Contents (Elt F) :=
  mulf (Host.gather gather_S100000_S1600000x1_S1600000_n_0_n_n_0_1_1 dinv (nodeIdx s))
    (Host.gather gather_S100000_S1600000x1_S1600000_n_0_n_n_0_1_1 dinv (nodeIdx d))

/-- The first layer's aggregation of projected features `h` (128 columns): weighted source rows added up at the
    targets, the node's own row weighted by `dinv²`, the bias row. -/
def conv128 (h : (⟨S100000x128, .f32⟩ : BufTy).Contents (Elt F)) (s d : (⟨S1600000, .i32⟩ : BufTy).Contents (Elt F))
    (dinv : (⟨S100000, .f32⟩ : BufTy).Contents (Elt F)) (norm : (⟨S1600000, .f32⟩ : BufTy).Contents (Elt F))
    (b : (⟨S128, .f32⟩ : BufTy).Contents (Elt F)) : (⟨S100000x128, .f32⟩ : BufTy).Contents (Elt F) :=
  addf (addf
      (Host.scatterAdd scatter_S100000x128_S1600000x1_S1600000x128_1_0_0_1
        (broadcastInDim S100000x128 ![] bcast_S_S100000x128 (constant S_ .f32 0x00000000#32)) (nodeIdx d)
        (mulf (Host.gather gather_S100000x128_S1600000x1_S1600000x128_1_0_n_n_0_1_1128 h (nodeIdx s))
          (broadcastInDim S1600000x128 ![0, 1] bcast_S1600000x1_S1600000x128_0_1
            (broadcastInDim S1600000x1 ![0] bcast_S1600000_S1600000x1_0 norm))))
      (mulf h (broadcastInDim S100000x128 ![0, 1] bcast_S100000x1_S100000x128_0_1
        (broadcastInDim S100000x1 ![0] bcast_S100000_S100000x1_0 (mulf dinv dinv)))))
    (broadcastInDim S100000x128 ![0, 1] bcast_S1x128_S100000x128_0_1 (broadcastInDim S1x128 ![1] bcast_S128_S1x128_1 b))

/-- The rectifier between the layers: the maximum with zero. -/
def relu128 (x : (⟨S100000x128, .f32⟩ : BufTy).Contents (Elt F)) : (⟨S100000x128, .f32⟩ : BufTy).Contents (Elt F) :=
  maximumf x (broadcastInDim S100000x128 ![] bcast_S_S100000x128 (constant S_ .f32 0x00000000#32))

/-- The second layer's aggregation (64 columns): the same sum. -/
def conv64 (h : (⟨S100000x64, .f32⟩ : BufTy).Contents (Elt F)) (s d : (⟨S1600000, .i32⟩ : BufTy).Contents (Elt F))
    (dinv : (⟨S100000, .f32⟩ : BufTy).Contents (Elt F)) (norm : (⟨S1600000, .f32⟩ : BufTy).Contents (Elt F))
    (b : (⟨S64, .f32⟩ : BufTy).Contents (Elt F)) : (⟨S100000x64, .f32⟩ : BufTy).Contents (Elt F) :=
  addf (addf
      (Host.scatterAdd scatter_S100000x64_S1600000x1_S1600000x64_1_0_0_1
        (broadcastInDim S100000x64 ![] bcast_S_S100000x64 (constant S_ .f32 0x00000000#32)) (nodeIdx d)
        (mulf (Host.gather gather_S100000x64_S1600000x1_S1600000x64_1_0_n_n_0_1_164 h (nodeIdx s))
          (broadcastInDim S1600000x64 ![0, 1] bcast_S1600000x1_S1600000x64_0_1
            (broadcastInDim S1600000x1 ![0] bcast_S1600000_S1600000x1_0 norm))))
      (mulf h (broadcastInDim S100000x64 ![0, 1] bcast_S100000x1_S100000x64_0_1
        (broadcastInDim S100000x1 ![0] bcast_S100000_S100000x1_0 (mulf dinv dinv)))))
    (broadcastInDim S100000x64 ![0, 1] bcast_S1x64_S100000x64_0_1 (broadcastInDim S1x64 ![1] bcast_S64_S1x64_1 b))

/-- Graph ids as scatter indices: a negative id wrapped by the number of graphs, as a column of index tuples. -/
def graphIdx (g : (⟨S100000, .i32⟩ : BufTy).Contents (Elt F)) : (⟨S100000x1, .i32⟩ : BufTy).Contents (Elt F) :=
  broadcastInDim S100000x1 ![0] bcast_S100000_S100000x1_0
    (select (cmpi .slt g (broadcastInDim S100000 ![] bcast_S_S100000 (constantI S_ 32 0#32)))
      (addi g (broadcastInDim S100000 ![] bcast_S_S100000 (constantI S_ 32 64#32))) g)

/-- The mean of the node rows over each graph (row sums over node counts floored at one), then the affine map to the
    classes. -/
def poolHead (h : (⟨S100000x64, .f32⟩ : BufTy).Contents (Elt F)) (g : (⟨S100000, .i32⟩ : BufTy).Contents (Elt F))
    (Wfc : (⟨S64x10, .f32⟩ : BufTy).Contents (Elt F)) (bfc : (⟨S10, .f32⟩ : BufTy).Contents (Elt F)) :
    (⟨S64x10, .f32⟩ : BufTy).Contents (Elt F) :=
  addf
    (Host.dotGeneral dot_S64x64_S64x10_S64x10_1_0_0_1_n_n none
      (Host.divf
        (Host.scatterAdd scatter_S64x64_S100000x1_S100000x64_1_0_0_1
          (broadcastInDim S64x64 ![] bcast_S_S64x64 (constant S_ .f32 0x00000000#32)) (graphIdx g) h)
        (broadcastInDim S64x64 ![0, 1] bcast_S64x1_S64x64_0_1 (broadcastInDim S64x1 ![0] bcast_S64_S64x1_0
          (maximumf
            (Host.scatterAdd scatter_S64_S100000x1_S100000_n_0_0_1
              (broadcastInDim S64 ![] bcast_S_S64 (constant S_ .f32 0x00000000#32)) (graphIdx g)
              (broadcastInDim S100000 ![] bcast_S_S100000 (constant S_ .f32 0x3F800000#32)))
            (broadcastInDim S64 ![] bcast_S_S64 (constant S_ .f32 0x3F800000#32))))))
      Wfc)
    (broadcastInDim S64x10 ![0, 1] bcast_S1x10_S64x10_0_1 (broadcastInDim S1x10 ![1] bcast_S10_S1x10_1 bfc))

/-- The whole network at given projections `mm₁`, `mm₂`. -/
def network
    (mm₁ : (⟨S100000x128, .f32⟩ : BufTy).Contents (Elt F) → (⟨S128x128, .f32⟩ : BufTy).Contents (Elt F) → (⟨S100000x128, .f32⟩ : BufTy).Contents (Elt F))
    (mm₂ : (⟨S100000x128, .f32⟩ : BufTy).Contents (Elt F) → (⟨S128x64, .f32⟩ : BufTy).Contents (Elt F) → (⟨S100000x64, .f32⟩ : BufTy).Contents (Elt F))
    (x : (⟨S100000x128, .f32⟩ : BufTy).Contents (Elt F)) (ei : (⟨S2x1600000, .i32⟩ : BufTy).Contents (Elt F))
    (g : (⟨S100000, .i32⟩ : BufTy).Contents (Elt F))
    (W1 : (⟨S128x128, .f32⟩ : BufTy).Contents (Elt F)) (b1 : (⟨S128, .f32⟩ : BufTy).Contents (Elt F))
    (W2 : (⟨S128x64, .f32⟩ : BufTy).Contents (Elt F)) (b2 : (⟨S64, .f32⟩ : BufTy).Contents (Elt F))
    (Wfc : (⟨S64x10, .f32⟩ : BufTy).Contents (Elt F)) (bfc : (⟨S10, .f32⟩ : BufTy).Contents (Elt F)) :
    (⟨S64x10, .f32⟩ : BufTy).Contents (Elt F) :=
  poolHead
    (conv64
      (mm₂ (relu128 (conv128 (mm₁ x W1) (srcRow ei) (dstRow ei) (dinvOf (dstRow ei))
        (normOf (srcRow ei) (dstRow ei) (dinvOf (dstRow ei))) b1)) W2)
      (srcRow ei) (dstRow ei) (dinvOf (dstRow ei)) (normOf (srcRow ei) (dstRow ei) (dinvOf (dstRow ei))) b2)
    g Wfc bfc

end Cert.GraphConv

end
-- ==== Proof.RefModel.lean ====
/-
  The reference computes the network with each projection the host's contraction `Host.dotGeneral`: its composed
  result term, which spells every stage inline (the degree normalisation once per layer), is `GraphConv.network` at
  those two projections, stage for stage.
-/
import proofs.«160996_j84404697301756_1_alg».proof.Proof.Spec
import proofs.«160996_j84404697301756_1_alg».proof.Proof.Gen.ReferenceIdeal.Run

noncomputable section

namespace Cert.GraphConv

open Cert.ReferenceIdeal Cert.ReferenceIdeal.Gen Cert.ReferenceIdeal.Value Idealize.ShloMosaic Idealize.ShloMosaic.TcCoe Idealize.SL.Sem

variable {F : FTy → Type} [FloatOps F]

set_option maxRecDepth 8192 in
set_option maxHeartbeats 2000000 in
/-- The reference's result is the network of its arguments, the projections being the host's contractions. -/
theorem reference_eq (m : (ℓ : Loc nD τ sig) → Buf (Elt F) ℓ) (c : Dev nD) :
    res_main_v138 m c
      = network (F := F)
          (fun a w => Host.dotGeneral dot_S100000x128_S128x128_S100000x128_1_0_0_1_n_n none a w)
          (fun a w => Host.dotGeneral dot_S100000x128_S128x64_S100000x64_1_0_0_1_n_n none a w)
          (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) := by
  unfold res_main_v138 network poolHead conv64 relu128 conv128 normOf dinvOf graphIdx nodeIdx srcRow dstRow
  rfl

end Cert.GraphConv

end
-- ==== Proof.Projection.lean ====
/-
  The two feature projections at the ideal instance, as plain sums.

  On the extended reals a contraction of a [rows, 128] array with a [128, columns] array is, entry by entry, the sum
  over the shared axis of the products,
      (a · w) (r, c) = ∑ k < 128, a (r, k) · w (k, c),
  with no accumulator, no rounding and no order of summation to speak of. The host's contraction is that sum; so is
  any other way of computing it whose every entry is that sum.
-/
import proofs.«160996_j84404697301756_1_alg».proof.Proof.Gen.ReferenceIdeal.Read
import Idealize.ShloMosaic.Lib.ValueIdx
import Idealize.ShloMosaic.PureOps.Ideal.Laws

noncomputable section

namespace Cert.GraphConv

open Cert.ReferenceIdeal Cert.ReferenceIdeal.Gen Idealize.ShloMosaic

/-- `x · W₁`: 100000 rows, 128 features in, 128 out. -/
def proj₁ (a : FVec Ideal S100000x128 .f32) (w : FVec Ideal S128x128 .f32) :
    FVec Ideal S100000x128 .f32 :=
  fun i => ∑ k : Fin 128, a (ValueIdx.ix2 ⟨(i 0).val, (i 0).isLt⟩ k) * w (ValueIdx.ix2 k ⟨(i 1).val, (i 1).isLt⟩)

/-- `h · W₂`: 100000 rows, 128 features in, 64 out. -/
def proj₂ (a : FVec Ideal S100000x128 .f32) (w : FVec Ideal S128x64 .f32) :
    FVec Ideal S100000x64 .f32 :=
  fun i => ∑ k : Fin 128, a (ValueIdx.ix2 ⟨(i 0).val, (i 0).isLt⟩ k) * w (ValueIdx.ix2 k ⟨(i 1).val, (i 1).isLt⟩)

/-- The host's first contraction is `proj₁`: its entry is the sum over the contracted axis, the operand indices at
    output index `(r, c)` and contraction index `k` being `(r, k)` and `(k, c)`. -/
theorem dotGeneral₁_eq (a : FVec Ideal S100000x128 .f32) (w : FVec Ideal S128x128 .f32) :
    Host.dotGeneral (F := Ideal) dot_S100000x128_S128x128_S100000x128_1_0_0_1_n_n none a w = proj₁ a w := by
  funext i
  refine (Read.val_main_v4_apply a w i).trans ?_
  unfold proj₁
  refine Finset.sum_congr rfl fun k _ => ?_
  have el : Read.lidx_main_v4 i k = ValueIdx.ix2 ⟨(i 0).val, (i 0).isLt⟩ k := funext fun d => by
    match d with
    | ⟨0, _⟩ => rfl
    | ⟨1, _⟩ => rfl
  have er : Read.ridx_main_v4 i k = ValueIdx.ix2 k ⟨(i 1).val, (i 1).isLt⟩ := funext fun d => by
    match d with
    | ⟨0, _⟩ => rfl
    | ⟨1, _⟩ => rfl
  exact congrArg₂ (· * ·) (congrArg a el) (congrArg w er)

/-- The host's second contraction is `proj₂`, in the same way. -/
theorem dotGeneral₂_eq (a : FVec Ideal S100000x128 .f32) (w : FVec Ideal S128x64 .f32) :
    Host.dotGeneral (F := Ideal) dot_S100000x128_S128x64_S100000x64_1_0_0_1_n_n none a w = proj₂ a w := by
  funext i
  unfold proj₂
  simp only [Host.dotGeneral]
  rw [Ideal.dotGeneral_apply, ← Equiv.sum_comp (ValueIdx.contrEquiv1 dot_S100000x128_S128x64_S100000x64_1_0_0_1_n_n 128 rfl rfl).symm]
  refine Finset.sum_congr rfl fun k _ => ?_
  have hk := ValueIdx.contrEquiv1_symm_val dot_S100000x128_S128x64_S100000x64_1_0_0_1_n_n 128 rfl rfl k
  have el : dot_S100000x128_S128x64_S100000x64_1_0_0_1_n_n.lhsIdx i ((ValueIdx.contrEquiv1 dot_S100000x128_S128x64_S100000x64_1_0_0_1_n_n 128 rfl rfl).symm k)
      = ValueIdx.ix2 ⟨(i 0).val, (i 0).isLt⟩ k := funext fun d => Fin.ext (by
    match d with
    | ⟨0, _⟩ => exact Read.lhs_main_v59_0 _ _
    | ⟨1, _⟩ => exact (Read.lhs_main_v59_1 _ _).trans hk)
  have er : dot_S100000x128_S128x64_S100000x64_1_0_0_1_n_n.rhsIdx i ((ValueIdx.contrEquiv1 dot_S100000x128_S128x64_S100000x64_1_0_0_1_n_n 128 rfl rfl).symm k)
      = ValueIdx.ix2 k ⟨(i 1).val, (i 1).isLt⟩ := funext fun d => Fin.ext (by
    match d with
    | ⟨0, _⟩ => exact (Read.rhs_main_v59_0 _ _).trans hk
    | ⟨1, _⟩ => exact Read.rhs_main_v59_1 _ _)
  exact congrArg₂ (· * ·) (congrArg a el) (congrArg w er)

end Cert.GraphConv

end
-- ==== Proof.RunRead.lean ====
/-
  The kernel program's run, with every buffer readable at the end.

  The program is six segments: the host stretch that computes the degree normalisation, the first projection kernel,
  the first layer's aggregation, the rectifier, the second projection kernel, and the stretch that aggregates, pools and
  applies the last affine map. Every weakly fair execution runs them in order, terminates without a fault, and ends with
  every unscoped buffer of every core at the contents `W6` that the six segments fold from the launch memory. So any
  property of the final memory that follows from "each unscoped buffer is at `W6`" holds of every execution
  (`run_read`); in particular the result buffer is at `W6` there and the arguments are as launched (`run_value`).
-/
import proofs.«160996_j84404697301756_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with every unscoped buffer of every core
    at the contents `W6` the six segments fold from the launch memory: whatever follows from that holds of the final
    state. -/
theorem run_read {Q : PUnit × MemSt nD τ sig (Elt F) → Prop}
    (hQ : ∀ s : MemSt nD τ sig (Elt F),
      (∀ c : Dev nD, ∀ b ∈ Pipeline.ucRefs τ sig, s.mem (((c : Thread nD τ)).1, b) = W6 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := hQ)

/-- The run with the result buffer read at `W6` and the arguments as launched. -/
theorem run_value : θ_run defs (onTc (τ := τ) (main (F := F))) ⟨m, fun _ => 0, ρ⟩ (fun r => ∀ c : Dev nD,
      r.2.mem ((c.tc : Thread nD τ).loc main_v111) = W6 m ρ c (Proc.devRef .tc main_v111)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  run_read m ρ (fun s h c =>
    ⟨h c _ (mem_uc main_v111 (by decide)),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c)⟩)

end Run

end Cert.KernelIdeal.Whole

end
-- ==== Proof.KernelHost.lean ====
/-
  The kernel program's host stretches, each read as a function of what the buffers hold when it starts.

  Between its two projection kernels the program runs the network's other stages on the host, and computes the
  degree normalisation (`dinv`, the edge weights) once, before the first kernel, where the stages that use it find it.
  For ANY contents `V` of the buffers at a stretch's start, each buffer a later stage reads is, after the stretch,
  the stage's function of the buffers the stretch read (`GraphConv`'s), and a buffer the stretch does not write is
  unchanged.
-/
import proofs.«160996_j84404697301756_1_alg».proof.Proof.Spec
import proofs.«160996_j84404697301756_1_alg».proof.Proof.Gen.KernelIdeal.Launch
import Idealize.ShloMosaic.Lib.StableHlo.Run

noncomputable section

namespace Cert.KernelIdeal.Stretch

open Cert.KernelIdeal Cert.KernelIdeal.Gen Idealize.ShloMosaic Idealize.ShloMosaic.TcCoe Idealize.SL.Sem Idealize.ShloMosaic.StableHlo

variable {F : FTy → Type} [FloatOps F] (V : Valuation τ sig (Elt F))

/-! ## Before the first kernel: the edge rows, `dinv`, the edge weights -/

set_option maxHeartbeats 4000000 in
/-- The sources' row of the edge array. -/
theorem pre_src : after hostOps0 V (Proc.devRef .tc main_v1) = Cert.GraphConv.srcRow (V (Proc.devRef .tc main_arg1)) := by
  after_results_simp
  rfl

set_option maxHeartbeats 4000000 in
/-- The targets' row. -/
theorem pre_dst : after hostOps0 V (Proc.devRef .tc main_v3) = Cert.GraphConv.dstRow (V (Proc.devRef .tc main_arg1)) := by
  after_results_simp
  rfl

set_option maxHeartbeats 4000000 in
/-- `dinv`, from the targets' row. -/
theorem pre_dinv : after hostOps0 V (Proc.devRef .tc main_v15)
    = Cert.GraphConv.dinvOf (Cert.GraphConv.dstRow (V (Proc.devRef .tc main_arg1))) := by
  after_results_simp
  rfl

set_option maxHeartbeats 4000000 in
/-- The edge weights, from both rows and `dinv`. -/
theorem pre_norm : after hostOps0 V (Proc.devRef .tc main_v30)
    = Cert.GraphConv.normOf (Cert.GraphConv.srcRow (V (Proc.devRef .tc main_arg1))) (Cert.GraphConv.dstRow (V (Proc.devRef .tc main_arg1)))
        (Cert.GraphConv.dinvOf (Cert.GraphConv.dstRow (V (Proc.devRef .tc main_arg1)))) := by
  after_results_simp
  rfl

set_option maxHeartbeats 4000000 in
/-- The stretch writes no argument. -/
theorem pre_keeps :
    after hostOps0 V (Proc.devRef .tc main_arg0) = V (Proc.devRef .tc main_arg0)
      ∧ after hostOps0 V (Proc.devRef .tc main_arg2) = V (Proc.devRef .tc main_arg2)
      ∧ after hostOps0 V (Proc.devRef .tc main_arg3) = V (Proc.devRef .tc main_arg3)
      ∧ after hostOps0 V (Proc.devRef .tc main_arg4) = V (Proc.devRef .tc main_arg4)
      ∧ after hostOps0 V (Proc.devRef .tc main_arg5) = V (Proc.devRef .tc main_arg5)
      ∧ after hostOps0 V (Proc.devRef .tc main_arg6) = V (Proc.devRef .tc main_arg6)
      ∧ after hostOps0 V (Proc.devRef .tc main_arg7) = V (Proc.devRef .tc main_arg7)
      ∧ after hostOps0 V (Proc.devRef .tc main_arg8) = V (Proc.devRef .tc main_arg8) :=
  ⟨by after_results_simp, by after_results_simp, by after_results_simp, by after_results_simp, by after_results_simp, by after_results_simp, by after_results_simp, by after_results_simp⟩

/-! ## Between the kernels: the first layer's aggregation, then the rectifier -/

set_option maxHeartbeats 4000000 in
/-- The first layer's aggregation of the first kernel's result (`main_v31`), with the normalisation computed before. -/
theorem mid_conv : after hostOps1 V (Proc.devRef .tc main_v57)
    = Cert.GraphConv.conv128 (V (Proc.devRef .tc main_v31)) (V (Proc.devRef .tc main_v1)) (V (Proc.devRef .tc main_v3))
        (V (Proc.devRef .tc main_v15)) (V (Proc.devRef .tc main_v30)) (V (Proc.devRef .tc main_arg4)) := by
  after_results_simp
  rfl

set_option maxHeartbeats 4000000 in
theorem mid_keeps :
    after hostOps1 V (Proc.devRef .tc main_v1) = V (Proc.devRef .tc main_v1)
      ∧ after hostOps1 V (Proc.devRef .tc main_v3) = V (Proc.devRef .tc main_v3)
      ∧ after hostOps1 V (Proc.devRef .tc main_v15) = V (Proc.devRef .tc main_v15)
      ∧ after hostOps1 V (Proc.devRef .tc main_v30) = V (Proc.devRef .tc main_v30)
      ∧ after hostOps1 V (Proc.devRef .tc main_arg2) = V (Proc.devRef .tc main_arg2)
      ∧ after hostOps1 V (Proc.devRef .tc main_arg5) = V (Proc.devRef .tc main_arg5)
      ∧ after hostOps1 V (Proc.devRef .tc main_arg6) = V (Proc.devRef .tc main_arg6)
      ∧ after hostOps1 V (Proc.devRef .tc main_arg7) = V (Proc.devRef .tc main_arg7)
      ∧ after hostOps1 V (Proc.devRef .tc main_arg8) = V (Proc.devRef .tc main_arg8) :=
  ⟨by after_results_simp, by after_results_simp, by after_results_simp, by after_results_simp, by after_results_simp, by after_results_simp, by after_results_simp, by after_results_simp, by after_results_simp⟩

/-- The rectifier. -/
theorem relu_val : after hostOps1_1 V (Proc.devRef .tc main_v58) = Cert.GraphConv.relu128 (V (Proc.devRef .tc main_v57)) := by
  after_results_simp
  rfl

theorem relu_keeps :
    after hostOps1_1 V (Proc.devRef .tc main_v1) = V (Proc.devRef .tc main_v1)
      ∧ after hostOps1_1 V (Proc.devRef .tc main_v3) = V (Proc.devRef .tc main_v3)
      ∧ after hostOps1_1 V (Proc.devRef .tc main_v15) = V (Proc.devRef .tc main_v15)
      ∧ after hostOps1_1 V (Proc.devRef .tc main_v30) = V (Proc.devRef .tc main_v30)
      ∧ after hostOps1_1 V (Proc.devRef .tc main_arg2) = V (Proc.devRef .tc main_arg2)
      ∧ after hostOps1_1 V (Proc.devRef .tc main_arg5) = V (Proc.devRef .tc main_arg5)
      ∧ after hostOps1_1 V (Proc.devRef .tc main_arg6) = V (Proc.devRef .tc main_arg6)
      ∧ after hostOps1_1 V (Proc.devRef .tc main_arg7) = V (Proc.devRef .tc main_arg7)
      ∧ after hostOps1_1 V (Proc.devRef .tc main_arg8) = V (Proc.devRef .tc main_arg8) :=
  ⟨by after_results_simp, by after_results_simp, by after_results_simp, by after_results_simp, by after_results_simp, by after_results_simp, by after_results_simp, by after_results_simp, by after_results_simp⟩

/-! ## After the second kernel: the second layer's aggregation, the pooling, the last affine map -/

set_option maxHeartbeats 8000000 in
/-- The result, from the second kernel's result (`main_v59`). -/
theorem post_val : after hostOps2 V (Proc.devRef .tc main_v111)
    = Cert.GraphConv.poolHead
        (Cert.GraphConv.conv64 (V (Proc.devRef .tc main_v59)) (V (Proc.devRef .tc main_v1)) (V (Proc.devRef .tc main_v3))
          (V (Proc.devRef .tc main_v15)) (V (Proc.devRef .tc main_v30)) (V (Proc.devRef .tc main_arg6)))
        (V (Proc.devRef .tc main_arg2)) (V (Proc.devRef .tc main_arg7)) (V (Proc.devRef .tc main_arg8)) := by
  after_results_simp
  rfl

end Cert.KernelIdeal.Stretch

end
-- ==== Proof.Region0.lean ====
/-
  What the first projection kernel leaves in its result array, at the ideal instance.

  The kernel walks the 100000 rows in 20 blocks of 5000. At point `t` it loads rows `5000 t … 5000 t + 4999` of its
  left operand and the whole [128, 128] right operand, narrows both to bf16 — the identity on extended reals —, multiplies
  them into a zero accumulator and stores the [5000, 128] product as block `t` of the result. So entry `(j, c)` of
  the block is `∑ k, left (5000 t + j, k) · right (k, c)`: block `t` of the whole product `left · right`. The 20
  blocks tile the result's rows, so the array ends holding the whole product — for ANY contents `V` of the buffers when
  the kernel starts.
-/
import proofs.«160996_j84404697301756_1_alg».proof.Proof.Projection
import proofs.«160996_j84404697301756_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

/-! ## The body's product at an index -/

theorem lhs_0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem rhs_0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem rhs_1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry `(r, c)` of what the body stores: the sum over `k` of the loaded left block at `(r, k)` times the loaded right
    operand at `(k, c)` — the narrowing to bf16 is the identity and the accumulator is zero. -/
theorem pay_apply (x0 : Vec Ideal S5000x128 .f32) (x1 : Vec Ideal S128x128 .f32) (j : S5000x128.Idx) :
    k0_pay1 x0 x1 j = ∑ k : Fin 128, x0 (ValueIdx.ix2 ⟨(j 0).val, (j 0).isLt⟩ k) * x1 (ValueIdx.ix2 k ⟨(j 1).val, (j 1).isLt⟩) := by
  unfold k0_pay1
  refine (Ideal.matmul_constant_zero_apply dot_S5000x128_S128x128_S5000x128_1_0_0_1_n_n none _ _ j).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = ValueIdx.ix2 ⟨(j 0).val, (j 0).isLt⟩ k :=
    funext fun d => Fin.ext (by
      match d with
      | ⟨0, _⟩ => exact lhs_0 _ _
      | ⟨1, _⟩ => exact (lhs_1 _ _).trans hk)
  have er : dot_S5000x128_S128x128_S5000x128_1_0_0_1_n_n.rhsIdx j ((ValueIdx.contrEquiv1 dot_S5000x128_S128x128_S5000x128_1_0_0_1_n_n 128 rfl rfl).symm k) = ValueIdx.ix2 k ⟨(j 1).val, (j 1).isLt⟩ :=
    funext fun d => Fin.ext (by
      match d with
      | ⟨0, _⟩ => exact (rhs_0 _ _).trans hk
      | ⟨1, _⟩ => exact rhs_1 _ _)
  exact congrArg₂ (· * ·) (congrArg x0 el) (congrArg x1 er)

/-- The body's product from blocks that are rows of `a` and all of `w`: if the left block's row `j 0` is row `i 0` of
    `a`, and the right block's column `j 1` is column `i 1` of `w`, entry `j` of the product is entry `i` of `a · w`. -/
theorem pay_eq_proj (a : FVec Ideal S100000x128 .f32) (w : FVec Ideal S128x128 .f32)
    (x0 : Vec Ideal S5000x128 .f32) (x1 : Vec Ideal S128x128 .f32) (j : S5000x128.Idx) (i : S100000x128.Idx)
    (h0 : ∀ k : Fin 128, x0 (ValueIdx.ix2 ⟨(j 0).val, (j 0).isLt⟩ k) = a (ValueIdx.ix2 ⟨(i 0).val, (i 0).isLt⟩ k))
    (h1 : ∀ k : Fin 128, x1 (ValueIdx.ix2 k ⟨(j 1).val, (j 1).isLt⟩) = w (ValueIdx.ix2 k ⟨(i 1).val, (i 1).isLt⟩)) :
    k0_pay1 x0 x1 j = Cert.GraphConv.proj₁ a w i := by
  rw [pay_apply]
  unfold Cert.GraphConv.proj₁
  exact Finset.sum_congr rfl fun k _ => congrArg₂ (· * ·) (h0 k) (h1 k)

/-! ## From the blocks to the array -/

section
variable (V : (c : Dev nD) → (b : Ref sig .tc) → Buf (Elt Ideal) ((c : Thread nD τ).loc b))

/-- The index maps over the grid: the left operand's and the result's blocks are at row block `t`, column block 0; the
    right operand's one block is the whole of it. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product of the operands as the kernel finds them. -/
theorem flushed_eq (c : Dev nD) (t : Fin cfg0.N) :
    (dat0 V c).flushed 2 t = ((cfg0.win 2).blk t).view.read (Elt Ideal) (Cert.GraphConv.proj₁ (V c main_arg0) (V c main_arg3)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts t
  funext j
  show k0_pay1 (iblk0 V c 0 t) (iblk0 V c 1 t) j = Cert.GraphConv.proj₁ (V c main_arg0) (V c main_arg3) (((cfg0.win 2).blk t).view.emb j)
  refine pay_eq_proj (V c main_arg0) (V c main_arg3) (iblk0 V c 0 t) (iblk0 V c 1 t) j (((cfg0.win 2).blk t).view.emb j) (fun k => ?_) (fun k => ?_)
  · show V c main_arg0 (((cfg0.win 0).blk t).view.emb (ValueIdx.ix2 ⟨(j 0).val, (j 0).isLt⟩ k)) = V c main_arg0 _
    refine congrArg (V c main_arg0) (funext fun d => Fin.ext ?_)
    match d with
    | ⟨0, _⟩ =>
      show win0_0.index t (0 : Fin 2) * 5000 + 1 * (j 0).val = win0_2.index t (0 : Fin 2) * 5000 + 1 * (j 0).val
      rw [e0, e4]
    | ⟨1, _⟩ =>
      show win0_0.index t (1 : Fin 2) * 128 + 1 * k.val = k.val
      rw [e1]; omega
  · show V c main_arg3 (((cfg0.win 1).blk t).view.emb (ValueIdx.ix2 k ⟨(j 1).val, (j 1).isLt⟩)) = V c main_arg3 _
    refine congrArg (V c main_arg3) (funext fun d => Fin.ext ?_)
    match d with
    | ⟨0, _⟩ =>
      show win0_1.index t (0 : Fin 2) * 128 + 1 * k.val = k.val
      rw [e2]; omega
    | ⟨1, _⟩ =>
      show win0_1.index t (1 : Fin 2) * 128 + 1 * (j 1).val = win0_2.index t (1 : Fin 2) * 128 + 1 * (j 1).val
      rw [e3, e5]

/-- An index of the result is in point `t`'s block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v31).slice (win0_2.rect t)).set ↔ _
  rw [View.set_slice_whole, Rect.mem_set_unit]
  exact Iff.rfl

/-- Every entry of the result is in some point's block: row `r` is in block `r / 5000`. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨-, -, -, -, e4, e5⟩ := idx_facts t
  have ht : t.val = (i 0).val / 5000 := rfl
  refine ⟨t, flush0_2 t, ?_⟩
  rw [mem_blk]
  intro a
  match a with
  | ⟨0, _⟩ =>
    show win0_2.index t (0 : Fin 2) * 5000 ≤ (i 0).val ∧ (i 0).val < win0_2.index t (0 : Fin 2) * 5000 + 5000
    rw [e4, ht]; omega
  | ⟨1, _⟩ =>
    show win0_2.index t (1 : Fin 2) * 128 ≤ (i 1).val ∧ (i 1).val < win0_2.index t (1 : Fin 2) * 128 + 128
    rw [e5]; omega

/-- The result array after the kernel: the whole product of the operands as the kernel found them. -/
theorem final (c : Dev nD) : (dat0 V c).arrAt 2 cfg0.N = Cert.GraphConv.proj₁ (V c main_arg0) (V c main_arg3) :=
  (dat0 V c).arrAt_eq_of_cover 2 (Cert.GraphConv.proj₁ (V c main_arg0) (V c main_arg3)) (fun t _ => flushed_eq V c t) (cover)

end

end Cert.KernelIdeal.Region0

end
-- ==== Proof.Region1.lean ====
/-
  What the second projection kernel leaves in its result array, at the ideal instance.

  The kernel walks the 100000 rows in 20 blocks of 5000. At point `t` it loads rows `5000 t … 5000 t + 4999` of its
  left operand and the whole [128, 64] right operand (through a shape cast to its own shape, which changes nothing), narrows both to bf16 — the identity on extended reals —, multiplies
  them into a zero accumulator and stores the [5000, 64] product as block `t` of the result. So entry `(j, c)` of
  the block is `∑ k, left (5000 t + j, k) · right (k, c)`: block `t` of the whole product `left · right`. The 20
  blocks tile the result's rows, so the array ends holding the whole product — for ANY contents `V` of the buffers when
  the kernel starts.
-/
import proofs.«160996_j84404697301756_1_alg».proof.Proof.Projection
import proofs.«160996_j84404697301756_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

/-! ## The body's product at an index -/

theorem lhs_0 (i : S5000x64.Idx) (q : dot_S5000x128_S128x64_S5000x64_1_0_0_1_n_n.contr.Idx) : (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_1 (i : S5000x64.Idx) (q : dot_S5000x128_S128x64_S5000x64_1_0_0_1_n_n.contr.Idx) : (dot_S5000x128_S128x64_S5000x64_1_0_0_1_n_n.lhsIdx i q 1).val = (q ⟨0, by decide⟩).val :=
  dot_S5000x128_S128x64_S5000x64_1_0_0_1_n_n.lhsIdx_val_of_single rfl i q
theorem rhs_0 (i : S5000x64.Idx) (q : dot_S5000x128_S128x64_S5000x64_1_0_0_1_n_n.contr.Idx) : (dot_S5000x128_S128x64_S5000x64_1_0_0_1_n_n.rhsIdx i q 0).val = (q ⟨0, by decide⟩).val :=
  dot_S5000x128_S128x64_S5000x64_1_0_0_1_n_n.rhsIdx_val_of_single rfl i q
theorem rhs_1 (i : S5000x64.Idx) (q : dot_S5000x128_S128x64_S5000x64_1_0_0_1_n_n.contr.Idx) : (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- Entry `(r, c)` of what the body stores: the sum over `k` of the loaded left block at `(r, k)` times the loaded right
    operand at `(k, c)` — the narrowing to bf16 is the identity and the accumulator is zero. -/
theorem pay_apply (x0 : Vec Ideal S5000x128 .f32) (x1 : Vec Ideal S128x64 .f32) (j : S5000x64.Idx) :
    k1_pay1 x0 x1 j = ∑ k : Fin 128, x0 (ValueIdx.ix2 ⟨(j 0).val, (j 0).isLt⟩ k) * x1 (ValueIdx.ix2 k ⟨(j 1).val, (j 1).isLt⟩) := by
  unfold k1_pay1
  rw [shapeCast_self]
  refine (Ideal.matmul_constant_zero_apply dot_S5000x128_S128x64_S5000x64_1_0_0_1_n_n none _ _ j).trans ?_
  rw [← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx j ((ValueIdx.contrEquiv1 dot_S5000x128_S128x64_S5000x64_1_0_0_1_n_n 128 rfl rfl).symm k) = ValueIdx.ix2 ⟨(j 0).val, (j 0).isLt⟩ k :=
    funext fun d => Fin.ext (by
      match d with
      | ⟨0, _⟩ => exact lhs_0 _ _
      | ⟨1, _⟩ => exact (lhs_1 _ _).trans hk)
  have er : dot_S5000x128_S128x64_S5000x64_1_0_0_1_n_n.rhsIdx j ((ValueIdx.contrEquiv1 dot_S5000x128_S128x64_S5000x64_1_0_0_1_n_n 128 rfl rfl).symm k) = ValueIdx.ix2 k ⟨(j 1).val, (j 1).isLt⟩ :=
    funext fun d => Fin.ext (by
      match d with
      | ⟨0, _⟩ => exact (rhs_0 _ _).trans hk
      | ⟨1, _⟩ => exact rhs_1 _ _)
  exact congrArg₂ (· * ·) (congrArg x0 el) (congrArg x1 er)

/-- The body's product from blocks that are rows of `a` and all of `w`: if the left block's row `j 0` is row `i 0` of
    `a`, and the right block's column `j 1` is column `i 1` of `w`, entry `j` of the product is entry `i` of `a · w`. -/
theorem pay_eq_proj (a : FVec Ideal S100000x128 .f32) (w : FVec Ideal S128x64 .f32)
    (x0 : Vec Ideal S5000x128 .f32) (x1 : Vec Ideal S128x64 .f32) (j : S5000x64.Idx) (i : S100000x64.Idx)
    (h0 : ∀ k : Fin 128, x0 (ValueIdx.ix2 ⟨(j 0).val, (j 0).isLt⟩ k) = a (ValueIdx.ix2 ⟨(i 0).val, (i 0).isLt⟩ k))
    (h1 : ∀ k : Fin 128, x1 (ValueIdx.ix2 k ⟨(j 1).val, (j 1).isLt⟩) = w (ValueIdx.ix2 k ⟨(i 1).val, (i 1).isLt⟩)) :
    k1_pay1 x0 x1 j = Cert.GraphConv.proj₂ a w i := by
  rw [pay_apply]
  unfold Cert.GraphConv.proj₂
  exact Finset.sum_congr rfl fun k _ => congrArg₂ (· * ·) (h0 k) (h1 k)

/-! ## From the blocks to the array -/

section
variable (V : (c : Dev nD) → (b : Ref sig .tc) → Buf (Elt Ideal) ((c : Thread nD τ).loc b))

/-- The index maps over the grid: the left operand's and the result's blocks are at row block `t`, column block 0; the
    right operand's one block is the whole of it. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the whole product of the operands as the kernel finds them. -/
theorem flushed_eq (c : Dev nD) (t : Fin cfg1.N) :
    (dat1 V c).flushed 2 t = ((cfg1.win 2).blk t).view.read (Elt Ideal) (Cert.GraphConv.proj₂ (V c main_v58) (V c main_arg5)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x64) hz]
  obtain ⟨e0, e1, e2, e3, e4, e5⟩ := idx_facts t
  funext j
  show k1_pay1 (iblk1 V c 0 t) (iblk1 V c 1 t) j = Cert.GraphConv.proj₂ (V c main_v58) (V c main_arg5) (((cfg1.win 2).blk t).view.emb j)
  refine pay_eq_proj (V c main_v58) (V c main_arg5) (iblk1 V c 0 t) (iblk1 V c 1 t) j (((cfg1.win 2).blk t).view.emb j) (fun k => ?_) (fun k => ?_)
  · show V c main_v58 (((cfg1.win 0).blk t).view.emb (ValueIdx.ix2 ⟨(j 0).val, (j 0).isLt⟩ k)) = V c main_v58 _
    refine congrArg (V c main_v58) (funext fun d => Fin.ext ?_)
    match d with
    | ⟨0, _⟩ =>
      show win1_0.index t (0 : Fin 2) * 5000 + 1 * (j 0).val = win1_2.index t (0 : Fin 2) * 5000 + 1 * (j 0).val
      rw [e0, e4]
    | ⟨1, _⟩ =>
      show win1_0.index t (1 : Fin 2) * 128 + 1 * k.val = k.val
      rw [e1]; omega
  · show V c main_arg5 (((cfg1.win 1).blk t).view.emb (ValueIdx.ix2 k ⟨(j 1).val, (j 1).isLt⟩)) = V c main_arg5 _
    refine congrArg (V c main_arg5) (funext fun d => Fin.ext ?_)
    match d with
    | ⟨0, _⟩ =>
      show win1_1.index t (0 : Fin 2) * 128 + 1 * k.val = k.val
      rw [e2]; omega
    | ⟨1, _⟩ =>
      show win1_1.index t (1 : Fin 2) * 64 + 1 * (j 1).val = win1_2.index t (1 : Fin 2) * 64 + 1 * (j 1).val
      rw [e3, e5]

/-- An index of the result is in point `t`'s block iff each coordinate is in the block's range on its axis. -/
theorem mem_blk (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v59).slice (win1_2.rect t)).set ↔ _
  rw [View.set_slice_whole, Rect.mem_set_unit]
  exact Iff.rfl

/-- Every entry of the result is in some point's block: row `r` is in block `r / 5000`. -/
theorem cover (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 20 := N_1
  let t : Fin cfg1.N := ⟨(i 0).val / 5000, by rw [hN]; omega⟩
  obtain ⟨-, -, -, -, e4, e5⟩ := idx_facts t
  have ht : t.val = (i 0).val / 5000 := rfl
  refine ⟨t, flush1_2 t, ?_⟩
  rw [mem_blk]
  intro a
  match a with
  | ⟨0, _⟩ =>
    show win1_2.index t (0 : Fin 2) * 5000 ≤ (i 0).val ∧ (i 0).val < win1_2.index t (0 : Fin 2) * 5000 + 5000
    rw [e4, ht]; omega
  | ⟨1, _⟩ =>
    show win1_2.index t (1 : Fin 2) * 64 ≤ (i 1).val ∧ (i 1).val < win1_2.index t (1 : Fin 2) * 64 + 64
    rw [e5]; omega

/-- The result array after the kernel: the whole product of the operands as the kernel found them. -/
theorem final (c : Dev nD) : (dat1 V c).arrAt 2 cfg1.N = Cert.GraphConv.proj₂ (V c main_v58) (V c main_arg5) :=
  (dat1 V c).arrAt_eq_of_cover 2 (Cert.GraphConv.proj₂ (V c main_v58) (V c main_arg5)) (fun t _ => flushed_eq V c t) (cover)

end

end Cert.KernelIdeal.Region1

end
-- ==== Proof.KernelValue.lean ====
/-
  The kernel program's result as the network of its arguments.

  The final contents `W6` fold through the program's segments; read back at the result buffer, one segment at a time:
  each host stretch is its stage of `GraphConv` of the buffers it read (`Stretch`); each projection kernel leaves the
  whole product of its operands in its result array and changes no other buffer (`Region0.final`, `Region1.final`); the
  edge rows, `dinv` and the edge weights, computed once before the first kernel, are carried unchanged to both layers.
  So at the ideal instance the result is `GraphConv.network` of the arguments at the plain-sum projections
  (`result_eq`).
-/
import proofs.«160996_j84404697301756_1_alg».proof.Proof.Gen.KernelIdeal.Frame
import proofs.«160996_j84404697301756_1_alg».proof.Proof.KernelHost
import proofs.«160996_j84404697301756_1_alg».proof.Proof.Region0
import proofs.«160996_j84404697301756_1_alg».proof.Proof.Region1

set_option maxRecDepth 16384

noncomputable section

namespace Cert.KernelIdeal.Whole

open Cert.KernelIdeal Cert.KernelIdeal.Gen
open Idealize.ShloMosaic Idealize.ShloMosaic.TcCoe Idealize.SL.Sem
open Idealize.ShloMosaic.Pipeline (Dat)

/-! ## The fold read back at the result, at the ideal instance -/

section Value

variable (m : (ℓ : Loc nD τ sig) → Buf (Elt Ideal) ℓ) (ρ : Dev nD → PrngReg) (c : Dev nD)

/-! ### At the first kernel's entry (`W1`): the normalisation computed, the arguments as launched -/

theorem at1_src : W1 m ρ c (Proc.devRef .tc main_v1) = Cert.GraphConv.srcRow (m ((c.tc : Thread nD τ).loc main_arg1)) :=
  Stretch.pre_src (W0 m ρ c)
theorem at1_dst : W1 m ρ c (Proc.devRef .tc main_v3) = Cert.GraphConv.dstRow (m ((c.tc : Thread nD τ).loc main_arg1)) :=
  Stretch.pre_dst (W0 m ρ c)
theorem at1_dinv : W1 m ρ c (Proc.devRef .tc main_v15)
    = Cert.GraphConv.dinvOf (Cert.GraphConv.dstRow (m ((c.tc : Thread nD τ).loc main_arg1))) :=
  Stretch.pre_dinv (W0 m ρ c)
theorem at1_norm : W1 m ρ c (Proc.devRef .tc main_v30)
    = Cert.GraphConv.normOf (Cert.GraphConv.srcRow (m ((c.tc : Thread nD τ).loc main_arg1))) (Cert.GraphConv.dstRow (m ((c.tc : Thread nD τ).loc main_arg1)))
        (Cert.GraphConv.dinvOf (Cert.GraphConv.dstRow (m ((c.tc : Thread nD τ).loc main_arg1)))) :=
  Stretch.pre_norm (W0 m ρ c)
theorem at1_arg0 : W1 m ρ c (Proc.devRef .tc main_arg0) = m ((c.tc : Thread nD τ).loc main_arg0) := (Stretch.pre_keeps (W0 m ρ c)).1
theorem at1_arg2 : W1 m ρ c (Proc.devRef .tc main_arg2) = m ((c.tc : Thread nD τ).loc main_arg2) := (Stretch.pre_keeps (W0 m ρ c)).2.1
theorem at1_arg3 : W1 m ρ c (Proc.devRef .tc main_arg3) = m ((c.tc : Thread nD τ).loc main_arg3) := (Stretch.pre_keeps (W0 m ρ c)).2.2.1
theorem at1_arg4 : W1 m ρ c (Proc.devRef .tc main_arg4) = m ((c.tc : Thread nD τ).loc main_arg4) := (Stretch.pre_keeps (W0 m ρ c)).2.2.2.1
theorem at1_arg5 : W1 m ρ c (Proc.devRef .tc main_arg5) = m ((c.tc : Thread nD τ).loc main_arg5) := (Stretch.pre_keeps (W0 m ρ c)).2.2.2.2.1
theorem at1_arg6 : W1 m ρ c (Proc.devRef .tc main_arg6) = m ((c.tc : Thread nD τ).loc main_arg6) := (Stretch.pre_keeps (W0 m ρ c)).2.2.2.2.2.1
theorem at1_arg7 : W1 m ρ c (Proc.devRef .tc main_arg7) = m ((c.tc : Thread nD τ).loc main_arg7) := (Stretch.pre_keeps (W0 m ρ c)).2.2.2.2.2.2.1
theorem at1_arg8 : W1 m ρ c (Proc.devRef .tc main_arg8) = m ((c.tc : Thread nD τ).loc main_arg8) := (Stretch.pre_keeps (W0 m ρ c)).2.2.2.2.2.2.2

/-! ### The first kernel's result (`W2`): `x · W₁` -/

theorem at2_proj : W2 m ρ c (Proc.devRef .tc main_v31)
    = Cert.GraphConv.proj₁ (m ((c.tc : Thread nD τ).loc main_arg0)) (m ((c.tc : Thread nD τ).loc main_arg3)) := by
  refine (W2_arr m ρ c 2).trans ((Region0.final (V1 m ρ) c).trans ?_)
  show Cert.GraphConv.proj₁ (W1 m ρ c (Proc.devRef .tc main_arg0)) (W1 m ρ c (Proc.devRef .tc main_arg3)) = _
  rw [at1_arg0, at1_arg3]

/-! ### The rectified first layer (`W4`), the second kernel's left operand -/

theorem at4_act : W4 m ρ c (Proc.devRef .tc main_v58)
    = Cert.GraphConv.relu128 (Cert.GraphConv.conv128
        (Cert.GraphConv.proj₁ (m ((c.tc : Thread nD τ).loc main_arg0)) (m ((c.tc : Thread nD τ).loc main_arg3)))
        (Cert.GraphConv.srcRow (m ((c.tc : Thread nD τ).loc main_arg1))) (Cert.GraphConv.dstRow (m ((c.tc : Thread nD τ).loc main_arg1)))
        (Cert.GraphConv.dinvOf (Cert.GraphConv.dstRow (m ((c.tc : Thread nD τ).loc main_arg1))))
        (Cert.GraphConv.normOf (Cert.GraphConv.srcRow (m ((c.tc : Thread nD τ).loc main_arg1))) (Cert.GraphConv.dstRow (m ((c.tc : Thread nD τ).loc main_arg1)))
          (Cert.GraphConv.dinvOf (Cert.GraphConv.dstRow (m ((c.tc : Thread nD τ).loc main_arg1)))))
        (m ((c.tc : Thread nD τ).loc main_arg4))) := by
  refine (Stretch.relu_val (W3 m ρ c)).trans (congrArg Cert.GraphConv.relu128 ?_)
  refine (Stretch.mid_conv (W2 m ρ c)).trans ?_
  rw [at2_proj, W2_of_ne m ρ c main_v1 (by decide), W2_of_ne m ρ c main_v3 (by decide), W2_of_ne m ρ c main_v15 (by decide),
    W2_of_ne m ρ c main_v30 (by decide), W2_of_ne m ρ c main_arg4 (by decide), at1_src, at1_dst, at1_dinv, at1_norm, at1_arg4]

/-- A buffer the aggregation, the rectifier and the second kernel leave alone holds at the last stretch's start (`W5`)
    what it held at the first kernel's entry (`W1`). -/
theorem carried (b : Ref sig .tc) (h0 : ∀ w, Pipeline.arrRef spec0 w ≠ b) (h1 : ∀ w, Pipeline.arrRef spec1 w ≠ b)
    (hmid : ∀ V : Valuation τ sig (Elt Ideal), StableHlo.after hostOps1 V (Proc.devRef .tc b) = V (Proc.devRef .tc b))
    (hrelu : ∀ V : Valuation τ sig (Elt Ideal), StableHlo.after hostOps1_1 V (Proc.devRef .tc b) = V (Proc.devRef .tc b)) :
    W5 m ρ c (Proc.devRef .tc b) = W1 m ρ c (Proc.devRef .tc b) :=
  (W5_of_ne m ρ c b h1).trans ((hrelu (W3 m ρ c)).trans ((hmid (W2 m ρ c)).trans (W2_of_ne m ρ c b h0)))

/-! ### The second kernel's result (`W5`): (rectified first layer) · W₂ -/

theorem at5_proj : W5 m ρ c (Proc.devRef .tc main_v59)
    = Cert.GraphConv.proj₂ (W4 m ρ c (Proc.devRef .tc main_v58)) (m ((c.tc : Thread nD τ).loc main_arg5)) := by
  refine (W5_arr m ρ c 2).trans ((Region1.final (V4 m ρ) c).trans ?_)
  show Cert.GraphConv.proj₂ (W4 m ρ c (Proc.devRef .tc main_v58)) (W4 m ρ c (Proc.devRef .tc main_arg5)) = _
  rw [show W4 m ρ c (Proc.devRef .tc main_arg5) = m ((c.tc : Thread nD τ).loc main_arg5) from
    ((Stretch.relu_keeps (W3 m ρ c)).2.2.2.2.2.1).trans (((Stretch.mid_keeps (W2 m ρ c)).2.2.2.2.2.1).trans
      ((W2_of_ne m ρ c main_arg5 (by decide)).trans (at1_arg5 m ρ c)))]

/-- THE RESULT: the network of the arguments, each projection the plain sum. -/
theorem result_eq : W6 m ρ c (Proc.devRef .tc main_v111)
    = Cert.GraphConv.network Cert.GraphConv.proj₁ Cert.GraphConv.proj₂
        (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8)) := by
  refine (Stretch.post_val (W5 m ρ c)).trans ?_
  unfold Cert.GraphConv.network
  rw [at5_proj, at4_act,
    carried m ρ c main_v1 (by decide) (by decide) (fun V => (Stretch.mid_keeps V).1) (fun V => (Stretch.relu_keeps V).1),
    carried m ρ c main_v3 (by decide) (by decide) (fun V => (Stretch.mid_keeps V).2.1) (fun V => (Stretch.relu_keeps V).2.1),
    carried m ρ c main_v15 (by decide) (by decide) (fun V => (Stretch.mid_keeps V).2.2.1) (fun V => (Stretch.relu_keeps V).2.2.1),
    carried m ρ c main_v30 (by decide) (by decide) (fun V => (Stretch.mid_keeps V).2.2.2.1) (fun V => (Stretch.relu_keeps V).2.2.2.1),
    carried m ρ c main_arg2 (by decide) (by decide) (fun V => (Stretch.mid_keeps V).2.2.2.2.1) (fun V => (Stretch.relu_keeps V).2.2.2.2.1),
    carried m ρ c main_arg6 (by decide) (by decide) (fun V => (Stretch.mid_keeps V).2.2.2.2.2.2.1) (fun V => (Stretch.relu_keeps V).2.2.2.2.2.2.1),
    carried m ρ c main_arg7 (by decide) (by decide) (fun V => (Stretch.mid_keeps V).2.2.2.2.2.2.2.1) (fun V => (Stretch.relu_keeps V).2.2.2.2.2.2.2.1),
    carried m ρ c main_arg8 (by decide) (by decide) (fun V => (Stretch.mid_keeps V).2.2.2.2.2.2.2.2) (fun V => (Stretch.relu_keeps V).2.2.2.2.2.2.2.2),
    at1_src, at1_dst, at1_dinv, at1_norm, at1_arg2, at1_arg6, at1_arg7, at1_arg8]

end Value

end Cert.KernelIdeal.Whole

end
-- ==== Proof.lean ====
/-
  A two-layer graph convolution with mean pooling and a linear head: the kernel program against its reference, on the
  extended reals.

  Both programs compute the same network (`Proof/Spec.lean`: degree normalisation, two aggregation layers with a
  rectifier between them, the mean over each graph, an affine map). They differ in two things only. The reference
  computes each feature projection `x · W` as one host contraction; the kernel program computes it in a kernel that
  walks the rows in 20 blocks of 5000 and multiplies each block, narrowed to bf16, into a zero accumulator. And the
  reference computes the degree normalisation once per layer, the kernel program once, ahead of both.
  On the extended reals neither is a difference: narrowing is the identity and a block of the product is the product
  of the block, so each kernel leaves the whole product, entry by entry the sum `∑ k, a (r, k) · w (k, c)` that the host's
  contraction is (`Proof/Projection.lean`, `Proof/Region0.lean`, `Proof/Region1.lean`); and the normalisation is the same
  function of the edge array wherever it is computed. No law of arithmetic beyond that is used — no distributivity,
  no cancellation —, so nothing here needs the inputs finite.

  The kernel program's run and its result are `Proof/RunRead.lean` and `Proof/KernelValue.lean` (its host stretches:
  `Proof/KernelHost.lean`); the reference's result as the same network is `Proof/RefModel.lean`. The ideal pass rewrote
  nothing, so `preserves` has nothing to state.
-/
import proofs.«160996_j84404697301756_1_alg».proof.Defs
import proofs.«160996_j84404697301756_1_alg».proof.Proof.Gen.Kernel
import proofs.«160996_j84404697301756_1_alg».proof.Proof.Gen.Kernel.Frame
import proofs.«160996_j84404697301756_1_alg».proof.Proof.Gen.KernelIdeal
import proofs.«160996_j84404697301756_1_alg».proof.Proof.Gen.KernelIdeal.Frame
import proofs.«160996_j84404697301756_1_alg».proof.Proof.Gen.ReferenceIdeal
import proofs.«160996_j84404697301756_1_alg».proof.Proof.Gen.ReferenceIdeal.Run
import proofs.«160996_j84404697301756_1_alg».proof.Proof.Gen.ReferenceIdeal.Read
import proofs.«160996_j84404697301756_1_alg».proof.Proof.Gen.Pre_finite_inputs
import proofs.«160996_j84404697301756_1_alg».proof.Proof.RefModel
import proofs.«160996_j84404697301756_1_alg».proof.Proof.Projection
import proofs.«160996_j84404697301756_1_alg».proof.Proof.RunRead
import proofs.«160996_j84404697301756_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Gen.frame m ρ

/-- So does the kernel program read at the ideal instance. -/
theorem frame_ki : Cert.frame_KernelIdeal := fun m ρ _ => Cert.KernelIdeal.Gen.frame m ρ

/-- The reference runs and leaves its arguments as launched: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the arguments, the kernel program ends with its result at the network of its arguments
    at the plain-sum projections, the reference with its result at the network of the same arguments at the host's
    contractions — which are those sums. -/
theorem algebraic : Cert.algebraic_KernelIdeal_ReferenceIdeal := by
  intro m ρ m' ρ' _ hagree
  refine ⟨fun c => Cert.KernelIdeal.Gen.W6 m ρ c (Proc.devRef .tc Cert.KernelIdeal.main_v111),
    Cert.KernelIdeal.Whole.run_value (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  show _ = Cert.KernelIdeal.Gen.W6 m ρ c (Proc.devRef .tc Cert.KernelIdeal.main_v111)
  rw [Cert.GraphConv.reference_eq, Cert.KernelIdeal.Whole.result_eq, a0, a1, a2, a3, a4, a5, a6, a7, a8,
    show (fun a w => Host.dotGeneral (F := Ideal) Cert.ReferenceIdeal.dot_S100000x128_S128x128_S100000x128_1_0_0_1_n_n none a w)
      = Cert.GraphConv.proj₁ from funext fun a => funext fun w => Cert.GraphConv.dotGeneral₁_eq a w,
    show (fun a w => Host.dotGeneral (F := Ideal) Cert.ReferenceIdeal.dot_S100000x128_S128x64_S100000x64_1_0_0_1_n_n none a w)
      = Cert.GraphConv.proj₂ from funext fun a => funext fun w => Cert.GraphConv.dotGeneral₂_eq a w]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
